-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S512x4096 : Shape := ⟨2, ![512, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn_part1 {F : FTy → Type} [FloatOps F] (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  main_v18

def fn {F : FTy → Type} [FloatOps F] (main_arg0 : FVec F S8192x4096 .f32) (main_arg1 : FVec F S512x4096 .f32) (main_arg2 : FVec F S512x4096 .f32) (main_arg3 : FVec F S8192x4096 .f32) (main_arg4 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S512x4096 .f32 := Host.absf main_arg2
  let main_cst_2 : FVec F S_ .f32 := constant S_ .f32 0x7F800000#32
  let main_v10 : FVec F S512x4096 .f32 := broadcastInDim S512x4096 ![] bcast_S_S512x4096 main_cst_2
  let main_v11 : IVec S512x4096 1 := cmpf .olt main_v9 main_v10
  let main_c_3 : IVec S_ 1 := constantI S_ 1 1#1
  let main_v12 : IVec S_ 1 := (fun x v => Host.reduce IntOp.andi x v reducesTo_S512x4096_S_d0_1 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_v13 main_v16
-- ==== Kernel.lean ====
abbrev S8192x4096 : Shape := ⟨2, ![8192, 4096]⟩
abbrev S512x4096 : Shape := ⟨2, ![512, 4096]⟩
abbrev S8192 : Shape := ⟨1, ![8192]⟩
abbrev S4096x512 : Shape := ⟨2, ![4096, 512]⟩
abbrev S8192x1 : Shape := ⟨2, ![8192, 1]⟩
abbrev S512x1 : Shape := ⟨2, ![512, 1]⟩
abbrev S512x512 : Shape := ⟨2, ![512, 512]⟩

abbrev nBuf : Space → Nat
  | .hbm => 11
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S512x4096, .f32⟩
  | .hbm, ⟨2, _⟩ => ⟨S512x4096, .f32⟩
  | .hbm, ⟨3, _⟩ => ⟨S8192x4096, .f32⟩
  | .hbm, ⟨4, _⟩ => ⟨S8192, .i32⟩
  | .hbm, ⟨5, _⟩ => ⟨S8192x4096, .bf16⟩
  | .hbm, ⟨6, _⟩ => ⟨S4096x512, .f32⟩
  | .hbm, ⟨7, _⟩ => ⟨S4096x512, .bf16⟩
  | .hbm, ⟨8, _⟩ => ⟨S512x4096, .bf16⟩
  | .hbm, ⟨9, _⟩ => ⟨S8192x1, .i32⟩
  | .hbm, ⟨10, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S512x4096, .bf16⟩
  | .local _ .vmem, ⟨4, _⟩ => ⟨S512x1, .i32⟩
  | .local _ .vmem, ⟨5, _⟩ => ⟨S512x1, .i32⟩
  | .local _ .vmem, ⟨6, _⟩ => ⟨S512x4096, .f32⟩
  | .local _ .vmem, ⟨7, _⟩ => ⟨S512x4096, .f32⟩
  | .local _ .vmem, ⟨8, _⟩ => ⟨S512x4096, .f32⟩
  | .local _ .vmem, ⟨9, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  transposes_S512x4096_S4096x512_1_0 : S512x4096.Transposes [1, 0] S4096x512
  shapeCasts_S8192_S8192x1 : S8192.ShapeCasts S8192x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x512_d1_w32 : S512x512.Iotas .tc 32 [1]
  natLt_1_32 : 1 < 32
  broadcasts_S512x1_S512x512 : S512x1.Broadcasts S512x512
  dot_S512x4096_S4096x512_S512x512_1_0_0_1_n_n_wf : DotDims.WF S512x4096 S4096x512 S512x512 [1] [0] [0] [1] [] []
  dot_S512x512_S512x4096_S512x4096_1_0_0_1_n_n_wf : DotDims.WF S512x512 S512x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S512x4096.size a
  hwx0_2 : ∀ i : grid0.Coords, EltTy.bits .bf16 = 32 ∨ (Rect.block (s := S512x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .i32 = 32 ∨ (Rect.block (s := S8192x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S8192x4096.size a
  hwx0_5 : ∀ i : grid0.Coords, EltTy.bits .f32 = 32 ∨ (Rect.block (s := S8192x4096) S512x4096.size (cc0_transform_5 i) (hinb0_5 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where
  halias0_5 : Pipeline.Aliased win0 4 5

variable [Facts]
-- ==== ReferenceIdeal.lean ====
abbrev S8192x4096 : Shape := ⟨2, ![8192, 4096]⟩
abbrev S512x4096 : Shape := ⟨2, ![512, 4096]⟩
abbrev S8192 : Shape := ⟨1, ![8192]⟩
abbrev S_ : Shape := ⟨0, ![]⟩
abbrev S64x4096 : Shape := ⟨2, ![64, 4096]⟩
abbrev S4096x64 : Shape := ⟨2, ![4096, 64]⟩
abbrev S8192x64 : Shape := ⟨2, ![8192, 64]⟩
abbrev S8192x1 : Shape := ⟨2, ![8192, 1]⟩

abbrev nBuf : Space → Nat
  | .hbm => 136
  | .vmem => 0
  | .smem => 0
  | _ => 0

abbrev hbmTy0_0 (i : Nat) : BufTy := match i % 128 with
  | 0 => ⟨S8192x4096, .f32⟩
  | 1 => ⟨S512x4096, .f32⟩
  | 2 => ⟨S512x4096, .f32⟩
  | 3 => ⟨S8192x4096, .f32⟩
  | 4 => ⟨S8192, .i32⟩
  | 5 => ⟨S_, .f32⟩
  | 6 => ⟨S8192x4096, .f32⟩
  | 7 => ⟨S64x4096, .f32⟩
  | 8 => ⟨S64x4096, .f32⟩
  | 9 => ⟨S4096x64, .f32⟩
  | 10 => ⟨S8192x64, .f32⟩
  | 11 => ⟨S_, .i32⟩
  | 12 => ⟨S8192, .i32⟩
  | 13 => ⟨S8192, .i1⟩
  | 14 => ⟨S8192, .f32⟩
  | 15 => ⟨S8192x1, .f32⟩
  | 16 => ⟨S8192x64, .f32⟩
  | 17 => ⟨S8192x64, .f32⟩
  | 18 => ⟨S8192x4096, .f32⟩
  | 19 => ⟨S_, .f32⟩
  | 20 => ⟨S8192x4096, .f32⟩
  | 21 => ⟨S8192x4096, .f32⟩
  | 22 => ⟨S8192x4096, .f32⟩
  | 23 => ⟨S64x4096, .f32⟩
  | 24 => ⟨S64x4096, .f32⟩
  | 25 => ⟨S4096x64, .f32⟩
  | 26 => ⟨S8192x64, .f32⟩
  | 27 => ⟨S_, .i32⟩
  | 28 => ⟨S8192, .i32⟩
  | 29 => ⟨S8192, .i1⟩
  | 30 => ⟨S8192, .f32⟩
  | 31 => ⟨S8192x1, .f32⟩
  | 32 => ⟨S8192x64, .f32⟩
  | 33 => ⟨S8192x64, .f32⟩
  | 34 => ⟨S8192x4096, .f32⟩
  | 35 => ⟨S_, .f32⟩
  | 36 => ⟨S8192x4096, .f32⟩
  | 37 => ⟨S8192x4096, .f32⟩
  | 38 => ⟨S8192x4096, .f32⟩
  | 39 => ⟨S64x4096, .f32⟩
  | 40 => ⟨S64x4096, .f32⟩
  | 41 => ⟨S4096x64, .f32⟩
  | 42 => ⟨S8192x64, .f32⟩
  | 43 => ⟨S_, .i32⟩
  | 44 => ⟨S8192, .i32⟩
  | 45 => ⟨S8192, .i1⟩
  | 46 => ⟨S8192, .f32⟩
  | 47 => ⟨S8192x1, .f32⟩
  | 48 => ⟨S8192x64, .f32⟩
  | 49 => ⟨S8192x64, .f32⟩
  | 50 => ⟨S8192x4096, .f32⟩
  | 51 => ⟨S_, .f32⟩
  | 52 => ⟨S8192x4096, .f32⟩
  | 53 => ⟨S8192x4096, .f32⟩
  | 54 => ⟨S8192x4096, .f32⟩
  | 55 => ⟨S64x4096, .f32⟩
  | 56 => ⟨S64x4096, .f32⟩
  | 57 => ⟨S4096x64, .f32⟩
  | 58 => ⟨S8192x64, .f32⟩
  | 59 => ⟨S_, .i32⟩
  | 60 => ⟨S8192, .i32⟩
  | 61 => ⟨S8192, .i1⟩
  | 62 => ⟨S8192, .f32⟩
  | 63 => ⟨S8192x1, .f32⟩
  | 64 => ⟨S8192x64, .f32⟩
  | 65 => ⟨S8192x64, .f32⟩
  | 66 => ⟨S8192x4096, .f32⟩
  | 67 => ⟨S_, .f32⟩
  | 68 => ⟨S8192x4096, .f32⟩
  | 69 => ⟨S8192x4096, .f32⟩
  | 70 => ⟨S8192x4096, .f32⟩
  | 71 => ⟨S64x4096, .f32⟩
  | 72 => ⟨S64x4096, .f32⟩
  | 73 => ⟨S4096x64, .f32⟩
  | 74 => ⟨S8192x64, .f32⟩
  | 75 => ⟨S_, .i32⟩
  | 76 => ⟨S8192, .i32⟩
  | 77 => ⟨S8192, .i1⟩
  | 78 => ⟨S8192, .f32⟩
  | 79 => ⟨S8192x1, .f32⟩
  | 80 => ⟨S8192x64, .f32⟩
  | 81 => ⟨S8192x64, .f32⟩
  | 82 => ⟨S8192x4096, .f32⟩
  | 83 => ⟨S_, .f32⟩
  | 84 => ⟨S8192x4096, .f32⟩
  | 85 => ⟨S8192x4096, .f32⟩
  | 86 => ⟨S8192x4096, .f32⟩
  | 87 => ⟨S64x4096, .f32⟩
  | 88 => ⟨S64x4096, .f32⟩
  | 89 => ⟨S4096x64, .f32⟩
  | 90 => ⟨S8192x64, .f32⟩
  | 91 => ⟨S_, .i32⟩
  | 92 => ⟨S8192, .i32⟩
  | 93 => ⟨S8192, .i1⟩
  | 94 => ⟨S8192, .f32⟩
  | 95 => ⟨S8192x1, .f32⟩
  | 96 => ⟨S8192x64, .f32⟩
  | 97 => ⟨S8192x64, .f32⟩
  | 98 => ⟨S8192x4096, .f32⟩
  | 99 => ⟨S_, .f32⟩
  | 100 => ⟨S8192x4096, .f32⟩
  | 101 => ⟨S8192x4096, .f32⟩
  | 102 => ⟨S8192x4096, .f32⟩
  | 103 => ⟨S64x4096, .f32⟩
  | 104 => ⟨S64x4096, .f32⟩
  | 105 => ⟨S4096x64, .f32⟩
  | 106 => ⟨S8192x64, .f32⟩
  | 107 => ⟨S_, .i32⟩
  | 108 => ⟨S8192, .i32⟩
  | 109 => ⟨S8192, .i1⟩
  | 110 => ⟨S8192, .f32⟩
  | 111 => ⟨S8192x1, .f32⟩
  | 112 => ⟨S8192x64, .f32⟩
  | 113 => ⟨S8192x64, .f32⟩
  | 114 => ⟨S8192x4096, .f32⟩
  | 115 => ⟨S_, .f32⟩
  | 116 => ⟨S8192x4096, .f32⟩
  | 117 => ⟨S8192x4096, .f32⟩
  | 118 => ⟨S8192x4096, .f32⟩
  | 119 => ⟨S64x4096, .f32⟩
  | 120 => ⟨S64x4096, .f32⟩
  | 121 => ⟨S4096x64, .f32⟩
  | 122 => ⟨S8192x64, .f32⟩
  | 123 => ⟨S_, .i32⟩
  | 124 => ⟨S8192, .i32⟩
  | 125 => ⟨S8192, .i1⟩
  | 126 => ⟨S8192, .f32⟩
  | 127 => ⟨S8192x1, .f32⟩
  | _ => ⟨S8192x4096, .f32⟩

abbrev hbmTy0_1 (i : Nat) : BufTy := match i % 128 with
  | 0 => ⟨S8192x64, .f32⟩
  | 1 => ⟨S8192x64, .f32⟩
  | 2 => ⟨S8192x4096, .f32⟩
  | 3 => ⟨S_, .f32⟩
  | 4 => ⟨S8192x4096, .f32⟩
  | 5 => ⟨S8192x4096, .f32⟩
  | 6 => ⟨S8192x4096, .f32⟩
  | 7 => ⟨S8192x4096, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_5 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_c_7 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_c_9 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_10 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_c_11 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_cst_12 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_c_13 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_cst_14 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  slices_S512x4096_S64x4096_0_0 : S512x4096.Slices ![0, 0] S64x4096
  transposes_S64x4096_S4096x64_1_0 : S64x4096.Transposes [1, 0] S4096x64
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  slices_S512x4096_S64x4096_64_0 : S512x4096.Slices ![64, 0] S64x4096
  slices_S512x4096_S64x4096_128_0 : S512x4096.Slices ![128, 0] S64x4096
  slices_S512x4096_S64x4096_192_0 : S512x4096.Slices ![192, 0] S64x4096
  slices_S512x4096_S64x4096_256_0 : S512x4096.Slices ![256, 0] S64x4096
  slices_S512x4096_S64x4096_320_0 : S512x4096.Slices ![320, 0] S64x4096
  slices_S512x4096_S64x4096_384_0 : S512x4096.Slices ![384, 0] S64x4096
  slices_S512x4096_S64x4096_448_0 : S512x4096.Slices ![448, 0] S64x4096
  dot_S8192x4096_S4096x64_S8192x64_1_0_0_1_n_n_wf : DotDims.WF S8192x4096 S4096x64 S8192x64 [1] [0] [0] [1] [] []
  dot_S8192x64_S64x4096_S8192x4096_1_0_0_1_n_n_wf : DotDims.WF S8192x64 S64x4096 S8192x4096 [1] [0] [0] [1] [] []

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def dot_S8192x64_S64x4096_S8192x4096_1_0_0_1_n_n : DotDims S8192x64 S64x4096 S8192x4096 where
  lhsContracting := [1]
  rhsContracting := [0]
  lhsNonContracting := [0]
  rhsNonContracting := [1]
  lhsBatch := []
  rhsBatch := []
  wf := dot_S8192x64_S64x4096_S8192x4096_1_0_0_1_n_n_wf

class Facts : Prop extends Facts₀ where

variable [Facts]
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibBlockSum.lean ====
/-
  A general lemma on sums: a sum over the a·b rows of a matrix may be taken block by block, a blocks of b consecutive rows.
-/
import Mathlib.Algebra.BigOperators.Fin
import Mathlib.Logic.Equiv.Fin.Basic

namespace Cert.LibBlockSum

open scoped BigOperators

/-- Row j of block i of an a-by-b blocking is a row of the whole. -/
theorem lt_blocks {a b i j : ℕ} (hi : i < a) (hj : j < b) : b * i + j < a * b :=
  calc b * i + j < b * i + b := by omega
    _ = b * (i + 1) := (Nat.mul_succ b i).symm
    _ ≤ b * a := Nat.mul_le_mul_left b hi
    _ = a * b := Nat.mul_comm b a

/-- The sum over all a·b rows is the sum over the a blocks of the sums over each block's b rows. -/
theorem sum_blocks {M : Type*} [AddCommMonoid M] (a b : ℕ) (g : Fin (a * b) → M) :
    ∑ i : Fin a, ∑ j : Fin b, g ⟨b * i.val + j.val, lt_blocks i.isLt j.isLt⟩ = ∑ r : Fin (a * b), g r := by
  rw [← Equiv.sum_comp finProdFinEquiv g, Fintype.sum_prod_type]
  refine Finset.sum_congr rfl fun i _ => Finset.sum_congr rfl fun j _ => congrArg g (Fin.ext ?_)
  simp only [finProdFinEquiv_apply_val]
  omega

end Cert.LibBlockSum
-- ==== Proof.LibBatchNorm.lean ====
/-
  General facts for a per-column normalisation stated over the extended reals.

  * The coercion of the reals into the extended reals commutes with finite sums.
  * For finitely many reals y i with n = the number of them and m = (∑ y) / n, the mean of the squared
    deviations (∑ (y i − m)²) / n equals the mean of the squares minus the squared mean, (∑ y i²) / n − m².
    Division is spelled as multiplication by 1 / n, the form a division by a nonzero real takes on the
    extended reals.
  * The mean of the squared deviations is nonnegative.
  * The reciprocal square root of a positive real is a real.
-/
import Idealize.ShloMosaic.PureOps.Ideal

namespace Cert.LibBatchNorm

open Idealize.ShloMosaic
open scoped BigOperators

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The mean of the squared deviations from the mean is the mean of the squares minus the squared mean:
    with m = (∑ y) · (1/n) and n the number of terms, (∑ (y i − m)²) · (1/n) = (∑ y i²) · (1/n) − m². -/
theorem mean_sq_dev {ι : Type*} [Fintype ι] (y : ι → ℝ) (n : ℝ) (hn : n ≠ 0)
    (hcard : (Fintype.card ι : ℝ) = n) :
    (∑ i, (y i - (∑ j, y j) * (1 / n)) * (y i - (∑ j, y j) * (1 / n))) * (1 / n)
      = (∑ i, y i * y i) * (1 / n) - ((∑ j, y j) * (1 / n)) * ((∑ j, y j) * (1 / n)) := by
  generalize hm : (∑ j, y j) * (1 / n) = m
  have h1 : ∑ i, (y i - m) * (y i - m) = (∑ i, y i * y i) - 2 * m * (∑ i, y i) + n * (m * m) := by
    have h : ∀ i, (y i - m) * (y i - m) = y i * y i - 2 * m * y i + m * m := fun i => by ring
    simp only [h, Finset.sum_add_distrib, Finset.sum_sub_distrib, ← Finset.mul_sum, Finset.sum_const,
      Finset.card_univ, nsmul_eq_mul, hcard]
    ring
  rw [h1, ← hm]
  field_simp
  ring

/-- The mean of the squared deviations is nonnegative when the divisor is positive. -/
theorem mean_sq_dev_nonneg {ι : Type*} [Fintype ι] (y : ι → ℝ) (m n : ℝ) (hn : 0 < n) :
    0 ≤ (∑ i, (y i - m) * (y i - m)) * (1 / n) :=
  mul_nonneg (Finset.sum_nonneg fun i _ => mul_self_nonneg _) (by positivity)

/-- The reciprocal square root of a positive real is the real 1 / √r. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

end Cert.LibBatchNorm
-- ==== Proof.AdapterSpec.lean ====
/-
  Per-token low-rank adapter update, as one function of the argument arrays.

  Each of the 8192 tokens t carries an adapter number; the 512 rank rows of the two factor matrices A and B
  (each 512 × 4096) are 8 adapters of 64 consecutive rows. The update of output entry (t, j) is

      base[t,j] + 2 · ∑ over the rows c of the token's own adapter of (∑ d, x[t,d] · A[c,d]) · B[c,j].

  Two arrangements of this sum are stated here. One walks the 8 adapters in turn, each contributing twice its
  64-row sum, weighted by 1 when the token's number is that adapter's and 0 otherwise, accumulated from zero
  and then added to the base entry. The other takes all 512 rows in one sum, each row weighted by 1 when the
  token's number is the row's adapter (row c belongs to adapter c / 64), the factor 2 applied inside the sum.
  When every entry of x, A, B and base is a real number the two agree: the 512 rows split into 8 runs of 64,
  and a real factor moves across a finite sum of reals. (At an infinite entry it need not: an extended-real
  product does not distribute over a sum of opposite infinities.)
-/
import Idealize.ShloMosaic.PureOps.Ideal
import Idealize.ShloMosaic.Lib.ValueIdx
import proofs.«111257_j927712936104_1_alg».proof.Proof.LibBlockSum
import proofs.«111257_j927712936104_1_alg».proof.Proof.LibBatchNorm

noncomputable section

open scoped BigOperators

namespace Cert.AdapterSpec

open Idealize.ShloMosaic Idealize.ShloMosaic.ValueIdx

/-- Token rows by feature columns: x, the base and the output. -/
abbrev ST : Shape := ⟨2, ![8192, 4096]⟩
/-- Rank rows by feature columns: the two factor matrices. -/
abbrev SR : Shape := ⟨2, ![512, 4096]⟩
/-- One adapter number per token. -/
abbrev SN : Shape := ⟨1, ![8192]⟩

/-- The common scale of every adapter, the word of 2.0. -/
def scale : EReal := Ideal.ofBits .f32 0x40000000#32

/-- The scale is the real number 2. -/
theorem scale_eq : scale = ((2 : ℝ) : EReal) := by
  unfold scale
  simp [Ideal.ofBits, Ideal.ieee, -EReal.coe_mul]; norm_num

/-- Token t projected on rank row c: ∑ d, x[t,d] · A[c,d]. -/
def proj (x : ST.Idx → EReal) (A : SR.Idx → EReal) (t : Fin 8192) (c : Fin 512) : EReal :=
  ∑ d : Fin 4096, x (ix2 t d) * A (ix2 c d)

/-- 1 when the word w is the number a, else 0. -/
def pick (w : BitVec 32) (a : ℕ) : EReal := ((if w = BitVec.ofNat 32 a then (1 : ℝ) else 0 : ℝ) : EReal)

/-- Row k of adapter a among the 512 rank rows. -/
def col (a : Fin 8) (k : Fin 64) : Fin 512 := ⟨64 * a.val + k.val, by have := a.isLt; have := k.isLt; omega⟩

theorem col_div (a : Fin 8) (k : Fin 64) : (col a k).val / 64 = a.val := by
  have := k.isLt; show (64 * a.val + k.val) / 64 = a.val; omega

/-- Adapter a's contribution at (t, j) for a token numbered w: twice the 64-row sum, weighted by whether w is a. -/
def round (x : ST.Idx → EReal) (A B : SR.Idx → EReal) (w : BitVec 32) (a : Fin 8) (t : Fin 8192) (j : Fin 4096) : EReal :=
  scale * ∑ k : Fin 64, (proj x A t (col a k) * pick w a.val) * B (ix2 (col a k) j)

/-- The adapters in turn: the eight contributions accumulated from zero, then added to the base entry. -/
def refOut (x : ST.Idx → EReal) (A B : SR.Idx → EReal) (base : ST.Idx → EReal) (ids : SN.Idx → BitVec 32)
    (t : Fin 8192) (j : Fin 4096) : EReal :=
  base (ix2 t j) + ((((((((0 + round x A B (ids (ix1 t)) 0 t j) + round x A B (ids (ix1 t)) 1 t j)
    + round x A B (ids (ix1 t)) 2 t j) + round x A B (ids (ix1 t)) 3 t j) + round x A B (ids (ix1 t)) 4 t j)
    + round x A B (ids (ix1 t)) 5 t j) + round x A B (ids (ix1 t)) 6 t j) + round x A B (ids (ix1 t)) 7 t j)

/-- All 512 rank rows in one sum, row c weighted by whether the token's number is c / 64, the scale inside. -/
def kerOut (x : ST.Idx → EReal) (A B : SR.Idx → EReal) (base : ST.Idx → EReal) (ids : SN.Idx → BitVec 32)
    (t : Fin 8192) (j : Fin 4096) : EReal :=
  base (ix2 t j) + ∑ c : Fin 512, ((proj x A t c * pick (ids (ix1 t)) (c.val / 64)) * scale) * B (ix2 c j)

end Cert.AdapterSpec

end
-- ==== Proof.KernelEntry.lean ====
/-
  The kernel body's stored value at one entry of a row block.

  At a grid point the body holds a block of 512 token rows of x (512 × 4096), all of the transposed first factor
  (4096 × 512), all of the second factor (512 × 4096), the block's 512 adapter numbers as a column, and the
  block of the base. It forms S = x_blk · Aᵀ (512 × 512: token row p against rank row c), weights S[p,c] by 1
  when c / 64 is token p's adapter number and by 0 otherwise, doubles it, multiplies by the second factor and
  adds the base block. So the stored entry (p, j) is

      base[p,j] + ∑ c, ((∑ d, x[p,d] · Aᵀ[d,c]) · [c / 64 = number of p] · 2) · B[c,j].

  The quotient c / 64 is computed on 32-bit words as a floor division: the truncating signed quotient, lowered by
  one when the operands' signs differ and the remainder is not zero. On the columns 0 … 511 neither happens, and
  the word is that of c / 64; this is checked on all 512 columns.
-/
import proofs.«111257_j927712936104_1_alg».proof.Proof.Gen.KernelIdeal.Skeleton
import proofs.«111257_j927712936104_1_alg».proof.Proof.LibPlainMatmul
import proofs.«111257_j927712936104_1_alg».proof.Proof.AdapterSpec
import Idealize.ShloMosaic.Lib.Pipeline.Value
import Idealize.ShloMosaic.Lib.ValueIdx

noncomputable section

open scoped BigOperators

namespace Cert.KernelEntry

open Cert.KernelIdeal Cert.KernelIdeal.Gen Idealize.ShloMosaic Idealize.ShloMosaic.ValueIdx Cert.AdapterSpec

/-- Floor division by 64 of a column's word, as the body spells it: the signed quotient, lowered by one when the
    sign of the column differs from the sign of 64 and the signed remainder is not zero. -/
def rowAdapter (v : BitVec 32) : BitVec 32 :=
  Scalar.select
    (IntOp.andi
      (IntOp.cmpi .ne
        (IntOp.subi ((IntOp.cmpi .sgt v 0#32).setWidth 32) ((IntOp.cmpi .slt v 0#32).setWidth 32))
        (Scalar.subi (Scalar.extui (Scalar.cmpi .sgt 64#32 0#32)) (Scalar.extui (Scalar.cmpi .slt 64#32 0#32))))
      (IntOp.cmpi .ne (IntOp.remsi .vector v 64#32) 0#32))
    (IntOp.subi (IntOp.divsi .vector v 64#32) 1#32)
    (IntOp.divsi .vector v 64#32)

/-- On the columns 0 … 511 it is the word of c / 64 (all 512 columns checked). -/
theorem rowAdapter_col : ∀ c : Fin 512, rowAdapter (BitVec.ofNat 32 c.val) = BitVec.ofNat 32 (c.val / 64) := by
  decide +kernel

/-- The column counter at entry (p, c) is the word of c. -/
theorem iota_col (p c : Fin 512) :
    iota .tc S512x512 32 [1] iota_S512x512_d1_w32 (ix2 p c) = BitVec.ofNat 32 c.val := by
  show BitVec.ofNat 32 (0 * 512 + c.val) = BitVec.ofNat 32 c.val
  rw [Nat.zero_mul, Nat.zero_add]

/-- The adapter numbers, kept as a column and spread along the rank axis, read at (p, c): token p's number. -/
theorem ids_col (idb : IVec S512x1 32) (p c : Fin 512) :
    broadcastTo S512x512 (shapeCast S512x1 idb shapeCasts_S512x1_S512x1) broadcasts_S512x1_S512x512 (ix2 p c)
      = idb (ix2 p 0) := by
  rw [shapeCast_self]
  exact broadcastTo_apply idb broadcasts_S512x1_S512x512 (ix2 p c) (ix2 p 0) (fun a => match a with
    | ⟨0, _⟩ => by show p.val = if (512 : Nat) = 1 then 0 else p.val; rw [if_neg (by decide)]
    | ⟨1, _⟩ => by show (0 : Nat) = if (1 : Nat) = 1 then 0 else c.val; rw [if_pos rfl])

/-- The one-bit comparison widened to a word and read as a signed number: 1 when the two words agree, else 0. -/
theorem weight_eq (a w : BitVec 32) :
    FloatOps.sitofp (F := Ideal) .f32 ((IntOp.cmpi .eq a w).setWidth 32)
      = (((if w = a then (1 : ℝ) else 0) : ℝ) : EReal) := by
  show ((((BitVec.ofBool (a == w)).setWidth 32).toInt : ℝ) : EReal) = _
  by_cases h : w = a
  · subst h
    rw [if_pos rfl, beq_self_eq_true]
    have e : ((BitVec.ofBool true).setWidth 32).toInt = 1 := by decide
    rw [e, Int.cast_one]
  · have hb : (a == w) = false := beq_eq_false_iff_ne.mpr fun h' => h h'.symm
    rw [if_neg h, hb]
    have e : ((BitVec.ofBool false).setWidth 32).toInt = 0 := by decide
    rw [e, Int.cast_zero]

/-- The weighted, doubled projection block at (p, c). -/
theorem pay3_apply (xb : FVec Ideal S512x4096 .bf16) (atb : FVec Ideal S4096x512 .bf16) (idb : IVec S512x1 32)
    (p c : Fin 512) :
    k0_pay3 (F := Ideal) xb atb idb (ix2 p c)
      = ((∑ d : Fin 4096, xb (ix2 p d) * atb (ix2 d c)) * pick (idb (ix2 p 0)) (c.val / 64)) * scale := by
  unfold k0_pay3
  dsimp only
  show (FloatOps.matmul (DotDims.plain 512 4096 512) none (shapeCast S512x4096 xb shapeCasts_S512x4096_S512x4096)
          (shapeCast S4096x512 atb shapeCasts_S4096x512_S4096x512) (constant ⟨2, ![512, 512]⟩ .f32 0x00000000#32) (ix2 p c)
        * FloatOps.sitofp (F := Ideal) .f32
            ((IntOp.cmpi .eq (rowAdapter (iota .tc S512x512 32 [1] iota_S512x512_d1_w32 (ix2 p c)))
              (broadcastTo S512x512 (shapeCast S512x1 idb shapeCasts_S512x1_S512x1) broadcasts_S512x1_S512x512 (ix2 p c))).setWidth 32))
      * Ideal.ofBits .f32 0x40000000#32 = _
  rw [shapeCast_self, shapeCast_self, PlainMatmul.matmul_zero_apply, iota_col, ids_col, rowAdapter_col, weight_eq]
  rfl

/-- The stored block at (p, j): the base entry plus the weighted block against the second factor. -/
theorem pay1_apply (bb : FVec Ideal S512x4096 .bf16) (sm : FVec Ideal S512x512 .bf16) (baseb : FVec Ideal S512x4096 .f32)
    (p : Fin 512) (j : Fin 4096) :
    k0_pay1 (F := Ideal) (k0_pay2 bb) sm baseb (ix2 p j) = baseb (ix2 p j) + ∑ c : Fin 512, sm (ix2 p c) * bb (ix2 c j) := by
  unfold k0_pay1 k0_pay2
  dsimp only
  show baseb (ix2 p j) + FloatOps.matmul (DotDims.plain 512 512 4096) none sm
      (shapeCast S512x4096 bb shapeCasts_S512x4096_S512x4096) (constant ⟨2, ![512, 4096]⟩ .f32 0x00000000#32) (ix2 p j) = _
  rw [shapeCast_self, PlainMatmul.matmul_zero_apply]

/-- **The body's stored value at (p, j)**, from the five blocks it loads. -/
theorem body_apply (xb : FVec Ideal S512x4096 .bf16) (atb : FVec Ideal S4096x512 .bf16) (bb : FVec Ideal S512x4096 .bf16)
    (idb : IVec S512x1 32) (baseb : FVec Ideal S512x4096 .f32) (p : Fin 512) (j : Fin 4096) :
    k0_pay1 (F := Ideal) (k0_pay2 bb) (k0_pay3 xb atb idb) baseb (ix2 p j)
      = baseb (ix2 p j) + ∑ c : Fin 512,
          (((∑ d : Fin 4096, xb (ix2 p d) * atb (ix2 d c)) * pick (idb (ix2 p 0)) (c.val / 64)) * scale) * bb (ix2 c j) := by
  rw [pay1_apply]
  exact congrArg (fun s => baseb (ix2 p j) + s) (Finset.sum_congr rfl fun c _ => by rw [pay3_apply])

end Cert.KernelEntry

end
-- ==== Proof.KernelWhole.lean ====
/-
  The kernel's result array as one function of the argument arrays.

  The grid has 16 points; point t works on token rows 512·t … 512·t + 511. Its block of x, of the adapter numbers
  and of the base are those rows of the arrays the region finds, the two factor blocks are the whole factor arrays
  at every point, and the block it writes back is those rows of the result. The arrays the region finds were
  written before it from the arguments: x and the second factor unchanged in value, the first factor transposed
  (entry (d, c) of the transposed array is entry (c, d) of the argument), the adapter numbers as a column.
  So what point t writes at row p, column j of its block is the all-rows arrangement of the update at token
  512·t + p, column j; the 16 blocks cover the 8192 rows (row r lies in block r / 512); hence the result array
  holds the all-rows arrangement at every entry.
-/
import proofs.«111257_j927712936104_1_alg».proof.Proof.Gen.KernelIdeal.Value
import proofs.«111257_j927712936104_1_alg».proof.Proof.KernelEntry
import proofs.«111257_j927712936104_1_alg».proof.Proof.AdapterSpec
import Idealize.ShloMosaic.Lib.Pipeline.Value
import Idealize.ShloMosaic.Lib.StableHlo.Run
import Idealize.ShloMosaic.Lib.ValueIdx

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.AdapterSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array: at entry (t, j) the all-rows arrangement of the update, of the five argument arrays. -/
def whole (c : Dev nD) : S8192x4096.Idx → Elt Ideal .f32 := fun i =>
  kerOut (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-! ## The arrays the region finds, at an entry -/

/-- x as the region finds it holds x's values. -/
theorem V_x (c : Dev nD) (i : S8192x4096.Idx) : V m c main_v0 i = m ((c : Thread nD τ).loc main_arg0) i := by
  have e : (V m c main_v0 : S8192x4096.Idx → EReal)
      = truncf (F := Ideal) .bf16 (m ((c : Thread nD τ).loc main_arg0)) bitsLt_bf16_f32 := by
    dsimp only [Gen.V, Gen.hostOps0]; after_results
  exact congrFun e i

/-- The first factor as the region finds it is transposed: entry (d, c) holds the argument's entry (c, d). -/
theorem V_At (c : Dev nD) (d : Fin 4096) (k : Fin 512) :
    V m c main_v2 (ix2 d k) = m ((c : Thread nD τ).loc main_arg1) (ix2 k d) := by
  have e : (V m c main_v2 : S4096x512.Idx → EReal)
      = truncf (F := Ideal) .bf16 (transpose S4096x512 [1, 0] (m ((c : Thread nD τ).loc main_arg1)) transposes_S512x4096_S4096x512_1_0) bitsLt_bf16_f32 := by
    dsimp only [Gen.V, Gen.hostOps0]; after_results
  refine (congrFun e (ix2 d k)).trans ?_
  exact transpose_apply [1, 0] (m ((c : Thread nD τ).loc main_arg1)) transposes_S512x4096_S4096x512_1_0 (ix2 d k) (ix2 k d)
    (fun b => match b with
      | ⟨0, _⟩ => rfl
      | ⟨1, _⟩ => rfl)

/-- The second factor as the region finds it holds the argument's values. -/
theorem V_B (c : Dev nD) (i : S512x4096.Idx) : V m c main_v3 i = m ((c : Thread nD τ).loc main_arg2) i := by
  have e : (V m c main_v3 : S512x4096.Idx → EReal)
      = truncf (F := Ideal) .bf16 (m ((c : Thread nD τ).loc main_arg2)) bitsLt_bf16_f32 := by
    dsimp only [Gen.V, Gen.hostOps0]; after_results
  exact congrFun e i

/-- The adapter numbers as the region finds them are a column: entry (t, 0) holds token t's number. -/
theorem V_ids (c : Dev nD) (t : Fin 8192) : V m c main_v4 (ix2 t 0) = m ((c : Thread nD τ).loc main_arg4) (ix1 t) := by
  have e : (V m c main_v4 : S8192x1.Idx → BitVec 32)
      = shapeCast S8192x1 (m ((c : Thread nD τ).loc main_arg4)) shapeCasts_S8192_S8192x1 := by
    dsimp only [Gen.V, Gen.hostOps0]; after_results; rfl
  refine (congrFun e (ix2 t 0)).trans ?_
  refine shapeCast_apply _ shapeCasts_S8192_S8192x1 (ix2 t 0) (ix1 t) ?_
  rw [Shape.rowMajor_val_one, Shape.rowMajor_val_two]
  show t.val = t.val * 1 + 0
  omega

/-! ## The index maps over the grid -/

/-- The printed index maps, decided over the 16 points: the row-blocked windows sit at block row t, block column 0;
    the two factor windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Token row p of point t's block, among the 8192 rows. -/
def row (t : Fin cfg0.N) (p : Fin 512) : Fin 8192 :=
  ⟨t.val * 512 + p.val, by have := t.isLt; have hN : cfg0.N = 16 := N_0; have := p.isLt; omega⟩

/-! ## The blocks at a point, at an entry -/

theorem blk_x (c : Dev nD) (t : Fin cfg0.N) (p : Fin 512) (d : Fin 4096) :
    iblk m c 0 t (ix2 p d) = m ((c : Thread nD τ).loc main_arg0) (ix2 (row t p) d) := by
  obtain ⟨e0, e1, -⟩ := idx_facts t
  show V m c main_v0 (((cfg0.win 0).blk t).view.emb (ix2 p d)) = _
  rw [V_x]
  refine congrArg (m ((c : Thread nD τ).loc main_arg0)) (funext fun a => Fin.ext ?_)
  match a with
  | ⟨0, _⟩ => show win0_0.index t (0 : Fin 2) * 512 + 1 * p.val = t.val * 512 + p.val; omega
  | ⟨1, _⟩ => show win0_0.index t (1 : Fin 2) * 4096 + 1 * d.val = d.val; omega

theorem blk_At (c : Dev nD) (t : Fin cfg0.N) (d : Fin 4096) (k : Fin 512) :
    iblk m c 1 t (ix2 d k) = m ((c : Thread nD τ).loc main_arg1) (ix2 k d) := by
  obtain ⟨-, -, e0, e1, -⟩ := idx_facts t
  show V m c main_v2 (((cfg0.win 1).blk t).view.emb (ix2 d k)) = _
  have ee : ((cfg0.win 1).blk t).view.emb (ix2 d k) = ix2 d k := funext fun a => Fin.ext (by
    match a with
    | ⟨0, _⟩ => show win0_1.index t (0 : Fin 2) * 4096 + 1 * d.val = d.val; omega
    | ⟨1, _⟩ => show win0_1.index t (1 : Fin 2) * 512 + 1 * k.val = k.val; omega)
  rw [ee, V_At]

theorem blk_B (c : Dev nD) (t : Fin cfg0.N) (k : Fin 512) (j : Fin 4096) :
    iblk m c 2 t (ix2 k j) = m ((c : Thread nD τ).loc main_arg2) (ix2 k j) := by
  obtain ⟨-, -, -, -, e0, e1, -⟩ := idx_facts t
  show V m c main_v3 (((cfg0.win 2).blk t).view.emb (ix2 k j)) = _
  rw [V_B]
  refine congrArg (m ((c : Thread nD τ).loc main_arg2)) (funext fun a => Fin.ext ?_)
  match a with
  | ⟨0, _⟩ => show win0_2.index t (0 : Fin 2) * 512 + 1 * k.val = k.val; omega
  | ⟨1, _⟩ => show win0_2.index t (1 : Fin 2) * 4096 + 1 * j.val = j.val; omega

theorem blk_ids (c : Dev nD) (t : Fin cfg0.N) (p : Fin 512) :
    iblk m c 3 t (ix2 p 0) = m ((c : Thread nD τ).loc main_arg4) (ix1 (row t p)) := by
  obtain ⟨-, -, -, -, -, -, e0, e1, -⟩ := idx_facts t
  show V m c main_v4 (((cfg0.win 3).blk t).view.emb (ix2 p 0)) = _
  have ee : ((cfg0.win 3).blk t).view.emb (ix2 p (0 : Fin 1)) = ix2 (row t p) (0 : Fin 1) := funext fun a => Fin.ext (by
    match a with
    | ⟨0, _⟩ => show win0_3.index t (0 : Fin 2) * 512 + 1 * p.val = t.val * 512 + p.val; omega
    | ⟨1, _⟩ => show win0_3.index t (1 : Fin 2) * 1 + 1 * 0 = 0; omega)
  rw [ee, V_ids]

theorem blk_base (c : Dev nD) (t : Fin cfg0.N) (p : Fin 512) (j : Fin 4096) :
    iblk m c 4 t (ix2 p j) = m ((c : Thread nD τ).loc main_arg3) (ix2 (row t p) j) := by
  obtain ⟨-, -, -, -, -, -, -, -, e0, e1, -⟩ := idx_facts t
  show V m c main_arg3 (((cfg0.win 4).blk t).view.emb (ix2 p j)) = _
  rw [V_main_arg3]
  refine congrArg (m ((c : Thread nD τ).loc main_arg3)) (funext fun a => Fin.ext ?_)
  match a with
  | ⟨0, _⟩ => show win0_4.index t (0 : Fin 2) * 512 + 1 * p.val = t.val * 512 + p.val; omega
  | ⟨1, _⟩ => show win0_4.index t (1 : Fin 2) * 4096 + 1 * j.val = j.val; omega

/-- Entry (p, j) of point t's output block is entry (512·t + p, j) of the result array. -/
theorem emb_out (t : Fin cfg0.N) (p : Fin 512) (j : Fin 4096) :
    ((cfg0.win 5).blk t).view.emb (ix2 p j) = ix2 (row t p) j := by
  obtain ⟨-, -, -, -, -, -, -, -, -, -, e0, e1⟩ := idx_facts t
  refine funext fun a => Fin.ext ?_
  match a with
  | ⟨0, _⟩ => show win0_5.index t (0 : Fin 2) * 512 + 1 * p.val = t.val * 512 + p.val; omega
  | ⟨1, _⟩ => show win0_5.index t (1 : Fin 2) * 4096 + 1 * j.val = j.val; omega

/-! ## What a point writes back, the cover, the array -/

/-- What point t writes back is block t of the result array's function. -/
theorem flushed_eq (c : Dev nD) (t : Fin cfg0.N) (_hf : (cfg0.win 5).flush t = true) :
    (dats m 0 c).flushed 5 t = ((cfg0.win 5).blk t).view.read (Elt Ideal) (whole m c) := by
  rw [Value.flushed5]
  unfold out0_5
  rw [View.canon_unit_zero hz]
  simp only [View.ld_unit_zero (S := S512x4096) hz, View.ld_unit_zero (S := S4096x512) hz, View.ld_unit_zero (S := S512x1) hz]
  funext y
  obtain ⟨p, j, rfl⟩ : ∃ (p : Fin 512) (j : Fin 4096), y = ix2 p j := ⟨y 0, y 1, eq_ix2 y⟩
  show k0_pay1 (F := Ideal) (k0_pay2 (iblk m c 2 t)) (k0_pay3 (iblk m c 0 t) (iblk m c 1 t) (iblk m c 3 t)) (iblk m c 4 t) (ix2 p j)
    = whole m c (((cfg0.win 5).blk t).view.emb (ix2 p j))
  refine (Cert.KernelEntry.body_apply (iblk m c 0 t) (iblk m c 1 t) (iblk m c 2 t) (iblk m c 3 t) (iblk m c 4 t) p j).trans ?_
  rw [emb_out]
  unfold whole kerOut proj
  rw [blk_base, blk_ids]
  simp only [blk_B, blk_x, blk_At]

/-- Every entry of the result array lies in some point's block: row r in block r / 512. -/
theorem cover (i : S8192x4096.Idx) :
    ∃ t : Fin cfg0.N, (cfg0.win 5).flush t = true ∧ i ∈ ((cfg0.win 5).blk t).view.set := by
  have hN : cfg0.N = 16 := N_0
  have hi0 : (i 0).val < 8192 := (i 0).isLt
  have hi1 : (i 1).val < 4096 := (i 1).isLt
  have ht : (i 0).val / 512 < cfg0.N := by rw [hN]; omega
  obtain ⟨-, -, -, -, -, -, -, -, -, -, e0, e1⟩ := idx_facts ⟨(i 0).val / 512, ht⟩
  refine ⟨⟨(i 0).val / 512, ht⟩, flush0_5 _, ?_⟩
  show i ∈ ((View.whole main_v5).slice (win0_5.rect ⟨(i 0).val / 512, ht⟩)).set
  rw [View.set_slice_whole, Rect.mem_set_unit]
  intro a
  match a with
  | ⟨0, _⟩ =>
    show win0_5.index ⟨(i 0).val / 512, ht⟩ (0 : Fin 2) * 512 ≤ (i 0).val
      ∧ (i 0).val < win0_5.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_5.index ⟨(i 0).val / 512, ht⟩ (1 : Fin 2) * 4096 ≤ (i 1).val
      ∧ (i 1).val < win0_5.index ⟨(i 0).val / 512, ht⟩ (1 : Fin 2) * 4096 + 4096
    rw [e1]; omega

/-- The result array after the run. -/
theorem final (c : Dev nD) : (dats m 0 c).arrAt 5 cfg0.N = whole m c :=
  (dats m 0 c).arrAt_eq_of_cover 5 (whole m c) (flushed_eq m c) cover

/-- The kernel's run: the result array at the all-rows arrangement of the update, the arguments unchanged. -/
theorem run : θ_run defs (onTc (τ := τ) (main (F := Ideal))) ⟨m, fun _ => 0, ρ⟩ fun r => ∀ c : Dev nD,
      r.2.mem ((c : Thread nD τ).loc main_v5) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.RefRounds.lean ====
import proofs.«111257_j927712936104_1_alg».proof.Proof.Gen.ReferenceIdeal.Read
import proofs.«111257_j927712936104_1_alg».proof.Proof.AdapterSpec

/-!
  The reference program read at one entry. The reference walks the eight adapters in turn. For adapter a
  it takes rows 64a … 64a+63 of the two factor matrices, projects every token on the 64 rows of the first
  slice, weights each projection by 1 when the token's adapter number is a and by 0 otherwise, multiplies
  by the second slice, and doubles the product; the eight contributions are accumulated from a zero array
  and the total is added to the base array. Read at the entry (t, j), stage by stage, this is the
  specification's `refOut`: each adapter's contribution is the specification's `round`.
-/

open scoped BigOperators

namespace Cert.RefRounds

open Idealize.ShloMosaic Idealize.ShloMosaic.ValueIdx Cert.ReferenceIdeal Cert.ReferenceIdeal.Read Cert.AdapterSpec

/-- The word of the comparison `w = a`, converted to a float, is 1 when the comparison holds and 0 otherwise. -/
theorem uitofp_cmpi_eq (w : BitVec 32) (a : ℕ) :
    FloatOps.uitofp (F := Ideal) .f32 (IntOp.cmpi .eq w (BitVec.ofNat 32 a)) = pick w a := by
  unfold pick
  show (((IntOp.cmpi .eq w (BitVec.ofNat 32 a)).toNat : ℝ) : EReal) = _
  by_cases h : w = BitVec.ofNat 32 a
  · simp [IntOp.cmpi, h]
  · simp [IntOp.cmpi, h]

/-- Adapter 0's stage of the reference at the entry (t, j) is the specification's contribution of adapter 0. -/
theorem round0 (x0 : FVec Ideal S8192x4096 .f32) (x1 x2 : FVec Ideal S512x4096 .f32) (x4 : IVec S8192 32)
    (t : Fin 8192) (j : Fin 4096) :
    val_main_v13 (F := Ideal) x0 x1 x2 x4 (ix2 t j) = AdapterSpec.round x0 x1 x2 (x4 (ix1 t)) 0 t j := by
  have eA : ∀ (k : Fin 64) (d : Fin 4096),
      idx_main_v1 (idx_main_v3 (ridx_main_v4 (lidx_main_v11 (ix2 t j) k) d)) = ix2 (col 0 k) d :=
    fun k d => funext fun b => by
      match b with
      | ⟨0, _⟩ => exact Fin.ext (show k.val = 64 * (0 : Fin 8).val + k.val by simp)
      | ⟨1, _⟩ => rfl
  have eX : ∀ (k : Fin 64) (d : Fin 4096), lidx_main_v4 (lidx_main_v11 (ix2 t j) k) d = ix2 t d :=
    fun k d => funext fun b => by
      match b with
      | ⟨0, _⟩ => rfl
      | ⟨1, _⟩ => rfl
  have eW : ∀ k : Fin 64, idx_main_v8 (idx_main_v9 (lidx_main_v11 (ix2 t j) k)) = ix1 t :=
    fun k => funext fun b => by
      match b with
      | ⟨0, _⟩ => rfl
  have eB : ∀ k : Fin 64, idx_main_v2 (ridx_main_v11 (ix2 t j) k) = ix2 (col 0 k) j :=
    fun k => funext fun b => by
      match b with
      | ⟨0, _⟩ => exact Fin.ext (show k.val = 64 * (0 : Fin 8).val + k.val by simp)
      | ⟨1, _⟩ => rfl
  rw [val_main_v13_apply, val_main_v12_apply, val_main_cst_0_apply, val_main_v11_apply, Ideal.mulf_def, Ideal.ofBits_def]
  unfold AdapterSpec.round AdapterSpec.scale AdapterSpec.proj
  congr 1
  refine Finset.sum_congr rfl fun k _ => ?_
  rw [val_main_v10_apply, val_main_v4_apply, val_main_v9_apply, val_main_v8_apply, val_main_v7_apply,
    val_main_v6_apply, val_main_v5_apply, val_main_c_apply, val_main_v2_apply, eW, eB, uitofp_cmpi_eq, Ideal.mulf_def]
  simp only [val_main_v3_apply, val_main_v1_apply, eA, eX]
  rfl

/-- Adapter 1's stage of the reference at the entry (t, j) is the specification's contribution of adapter 1. -/
theorem round1 (x0 : FVec Ideal S8192x4096 .f32) (x1 x2 : FVec Ideal S512x4096 .f32) (x4 : IVec S8192 32)
    (t : Fin 8192) (j : Fin 4096) :
    val_main_v27 (F := Ideal) x0 x1 x2 x4 (ix2 t j) = AdapterSpec.round x0 x1 x2 (x4 (ix1 t)) 1 t j := by
  have eA : ∀ (k : Fin 64) (d : Fin 4096),
      idx_main_v15 (idx_main_v17 (ridx_main_v18 (lidx_main_v25 (ix2 t j) k) d)) = ix2 (col 1 k) d :=
    fun k d => funext fun b => by
      match b with
      | ⟨0, _⟩ => exact Fin.ext (show 64 + k.val = 64 * (1 : Fin 8).val + k.val by simp)
      | ⟨1, _⟩ => rfl
  have eX : ∀ (k : Fin 64) (d : Fin 4096), lidx_main_v18 (lidx_main_v25 (ix2 t j) k) d = ix2 t d :=
    fun k d => funext fun b => by
      match b with
      | ⟨0, _⟩ => rfl
      | ⟨1, _⟩ => rfl
  have eW : ∀ k : Fin 64, idx_main_v22 (idx_main_v23 (lidx_main_v25 (ix2 t j) k)) = ix1 t :=
    fun k => funext fun b => by
      match b with
      | ⟨0, _⟩ => rfl
  have eB : ∀ k : Fin 64, idx_main_v16 (ridx_main_v25 (ix2 t j) k) = ix2 (col 1 k) j :=
    fun k => funext fun b => by
      match b with
      | ⟨0, _⟩ => exact Fin.ext (show 64 + k.val = 64 * (1 : Fin 8).val + k.val by simp)
      | ⟨1, _⟩ => rfl
  rw [val_main_v27_apply, val_main_v26_apply, val_main_cst_2_apply, val_main_v25_apply, Ideal.mulf_def, Ideal.ofBits_def]
  unfold AdapterSpec.round AdapterSpec.scale AdapterSpec.proj
  congr 1
  refine Finset.sum_congr rfl fun k _ => ?_
  rw [val_main_v24_apply, val_main_v18_apply, val_main_v23_apply, val_main_v22_apply, val_main_v21_apply,
    val_main_v20_apply, val_main_v19_apply, val_main_c_1_apply, val_main_v16_apply, eW, eB, uitofp_cmpi_eq, Ideal.mulf_def]
  simp only [val_main_v17_apply, val_main_v15_apply, eA, eX]
  rfl

/-- Adapter 2's stage of the reference at the entry (t, j) is the specification's contribution of adapter 2. -/
theorem round2 (x0 : FVec Ideal S8192x4096 .f32) (x1 x2 : FVec Ideal S512x4096 .f32) (x4 : IVec S8192 32)
    (t : Fin 8192) (j : Fin 4096) :
    val_main_v41 (F := Ideal) x0 x1 x2 x4 (ix2 t j) = AdapterSpec.round x0 x1 x2 (x4 (ix1 t)) 2 t j := by
  have eA : ∀ (k : Fin 64) (d : Fin 4096),
      idx_main_v29 (idx_main_v31 (ridx_main_v32 (lidx_main_v39 (ix2 t j) k) d)) = ix2 (col 2 k) d :=
    fun k d => funext fun b => by
      match b with
      | ⟨0, _⟩ => exact Fin.ext (show 128 + k.val = 64 * (2 : Fin 8).val + k.val by simp)
      | ⟨1, _⟩ => rfl
  have eX : ∀ (k : Fin 64) (d : Fin 4096), lidx_main_v32 (lidx_main_v39 (ix2 t j) k) d = ix2 t d :=
    fun k d => funext fun b => by
      match b with
      | ⟨0, _⟩ => rfl
      | ⟨1, _⟩ => rfl
  have eW : ∀ k : Fin 64, idx_main_v36 (idx_main_v37 (lidx_main_v39 (ix2 t j) k)) = ix1 t :=
    fun k => funext fun b => by
      match b with
      | ⟨0, _⟩ => rfl
  have eB : ∀ k : Fin 64, idx_main_v30 (ridx_main_v39 (ix2 t j) k) = ix2 (col 2 k) j :=
    fun k => funext fun b => by
      match b with
      | ⟨0, _⟩ => exact Fin.ext (show 128 + k.val = 64 * (2 : Fin 8).val + k.val by simp)
      | ⟨1, _⟩ => rfl
  rw [val_main_v41_apply, val_main_v40_apply, val_main_cst_4_apply, val_main_v39_apply, Ideal.mulf_def, Ideal.ofBits_def]
  unfold AdapterSpec.round AdapterSpec.scale AdapterSpec.proj
  congr 1
  refine Finset.sum_congr rfl fun k _ => ?_
  rw [val_main_v38_apply, val_main_v32_apply, val_main_v37_apply, val_main_v36_apply, val_main_v35_apply,
    val_main_v34_apply, val_main_v33_apply, val_main_c_3_apply, val_main_v30_apply, eW, eB, uitofp_cmpi_eq, Ideal.mulf_def]
  simp only [val_main_v31_apply, val_main_v29_apply, eA, eX]
  rfl

/-- Adapter 3's stage of the reference at the entry (t, j) is the specification's contribution of adapter 3. -/
theorem round3 (x0 : FVec Ideal S8192x4096 .f32) (x1 x2 : FVec Ideal S512x4096 .f32) (x4 : IVec S8192 32)
    (t : Fin 8192) (j : Fin 4096) :
    val_main_v55 (F := Ideal) x0 x1 x2 x4 (ix2 t j) = AdapterSpec.round x0 x1 x2 (x4 (ix1 t)) 3 t j := by
  have eA : ∀ (k : Fin 64) (d : Fin 4096),
      idx_main_v43 (idx_main_v45 (ridx_main_v46 (lidx_main_v53 (ix2 t j) k) d)) = ix2 (col 3 k) d :=
    fun k d => funext fun b => by
      match b with
      | ⟨0, _⟩ => exact Fin.ext (show 192 + k.val = 64 * (3 : Fin 8).val + k.val by simp)
      | ⟨1, _⟩ => rfl
  have eX : ∀ (k : Fin 64) (d : Fin 4096), lidx_main_v46 (lidx_main_v53 (ix2 t j) k) d = ix2 t d :=
    fun k d => funext fun b => by
      match b with
      | ⟨0, _⟩ => rfl
      | ⟨1, _⟩ => rfl
  have eW : ∀ k : Fin 64, idx_main_v50 (idx_main_v51 (lidx_main_v53 (ix2 t j) k)) = ix1 t :=
    fun k => funext fun b => by
      match b with
      | ⟨0, _⟩ => rfl
  have eB : ∀ k : Fin 64, idx_main_v44 (ridx_main_v53 (ix2 t j) k) = ix2 (col 3 k) j :=
    fun k => funext fun b => by
      match b with
      | ⟨0, _⟩ => exact Fin.ext (show 192 + k.val = 64 * (3 : Fin 8).val + k.val by simp)
      | ⟨1, _⟩ => rfl
  rw [val_main_v55_apply, val_main_v54_apply, val_main_cst_6_apply, val_main_v53_apply, Ideal.mulf_def, Ideal.ofBits_def]
  unfold AdapterSpec.round AdapterSpec.scale AdapterSpec.proj
  congr 1
  refine Finset.sum_congr rfl fun k _ => ?_
  rw [val_main_v52_apply, val_main_v46_apply, val_main_v51_apply, val_main_v50_apply, val_main_v49_apply,
    val_main_v48_apply, val_main_v47_apply, val_main_c_5_apply, val_main_v44_apply, eW, eB, uitofp_cmpi_eq, Ideal.mulf_def]
  simp only [val_main_v45_apply, val_main_v43_apply, eA, eX]
  rfl

/-- Adapter 4's stage of the reference at the entry (t, j) is the specification's contribution of adapter 4. -/
theorem round4 (x0 : FVec Ideal S8192x4096 .f32) (x1 x2 : FVec Ideal S512x4096 .f32) (x4 : IVec S8192 32)
    (t : Fin 8192) (j : Fin 4096) :
    val_main_v69 (F := Ideal) x0 x1 x2 x4 (ix2 t j) = AdapterSpec.round x0 x1 x2 (x4 (ix1 t)) 4 t j := by
  have eA : ∀ (k : Fin 64) (d : Fin 4096),
      idx_main_v57 (idx_main_v59 (ridx_main_v60 (lidx_main_v67 (ix2 t j) k) d)) = ix2 (col 4 k) d :=
    fun k d => funext fun b => by
      match b with
      | ⟨0, _⟩ => exact Fin.ext (show 256 + k.val = 64 * (4 : Fin 8).val + k.val by simp)
      | ⟨1, _⟩ => rfl
  have eX : ∀ (k : Fin 64) (d : Fin 4096), lidx_main_v60 (lidx_main_v67 (ix2 t j) k) d = ix2 t d :=
    fun k d => funext fun b => by
      match b with
      | ⟨0, _⟩ => rfl
      | ⟨1, _⟩ => rfl
  have eW : ∀ k : Fin 64, idx_main_v64 (idx_main_v65 (lidx_main_v67 (ix2 t j) k)) = ix1 t :=
    fun k => funext fun b => by
      match b with
      | ⟨0, _⟩ => rfl
  have eB : ∀ k : Fin 64, idx_main_v58 (ridx_main_v67 (ix2 t j) k) = ix2 (col 4 k) j :=
    fun k => funext fun b => by
      match b with
      | ⟨0, _⟩ => exact Fin.ext (show 256 + k.val = 64 * (4 : Fin 8).val + k.val by simp)
      | ⟨1, _⟩ => rfl
  rw [val_main_v69_apply, val_main_v68_apply, val_main_cst_8_apply, val_main_v67_apply, Ideal.mulf_def, Ideal.ofBits_def]
  unfold AdapterSpec.round AdapterSpec.scale AdapterSpec.proj
  congr 1
  refine Finset.sum_congr rfl fun k _ => ?_
  rw [val_main_v66_apply, val_main_v60_apply, val_main_v65_apply, val_main_v64_apply, val_main_v63_apply,
    val_main_v62_apply, val_main_v61_apply, val_main_c_7_apply, val_main_v58_apply, eW, eB, uitofp_cmpi_eq, Ideal.mulf_def]
  simp only [val_main_v59_apply, val_main_v57_apply, eA, eX]
  rfl

/-- Adapter 5's stage of the reference at the entry (t, j) is the specification's contribution of adapter 5. -/
theorem round5 (x0 : FVec Ideal S8192x4096 .f32) (x1 x2 : FVec Ideal S512x4096 .f32) (x4 : IVec S8192 32)
    (t : Fin 8192) (j : Fin 4096) :
    val_main_v83 (F := Ideal) x0 x1 x2 x4 (ix2 t j) = AdapterSpec.round x0 x1 x2 (x4 (ix1 t)) 5 t j := by
  have eA : ∀ (k : Fin 64) (d : Fin 4096),
      idx_main_v71 (idx_main_v73 (ridx_main_v74 (lidx_main_v81 (ix2 t j) k) d)) = ix2 (col 5 k) d :=
    fun k d => funext fun b => by
      match b with
      | ⟨0, _⟩ => exact Fin.ext (show 320 + k.val = 64 * (5 : Fin 8).val + k.val by simp)
      | ⟨1, _⟩ => rfl
  have eX : ∀ (k : Fin 64) (d : Fin 4096), lidx_main_v74 (lidx_main_v81 (ix2 t j) k) d = ix2 t d :=
    fun k d => funext fun b => by
      match b with
      | ⟨0, _⟩ => rfl
      | ⟨1, _⟩ => rfl
  have eW : ∀ k : Fin 64, idx_main_v78 (idx_main_v79 (lidx_main_v81 (ix2 t j) k)) = ix1 t :=
    fun k => funext fun b => by
      match b with
      | ⟨0, _⟩ => rfl
  have eB : ∀ k : Fin 64, idx_main_v72 (ridx_main_v81 (ix2 t j) k) = ix2 (col 5 k) j :=
    fun k => funext fun b => by
      match b with
      | ⟨0, _⟩ => exact Fin.ext (show 320 + k.val = 64 * (5 : Fin 8).val + k.val by simp)
      | ⟨1, _⟩ => rfl
  rw [val_main_v83_apply, val_main_v82_apply, val_main_cst_10_apply, val_main_v81_apply, Ideal.mulf_def, Ideal.ofBits_def]
  unfold AdapterSpec.round AdapterSpec.scale AdapterSpec.proj
  congr 1
  refine Finset.sum_congr rfl fun k _ => ?_
  rw [val_main_v80_apply, val_main_v74_apply, val_main_v79_apply, val_main_v78_apply, val_main_v77_apply,
    val_main_v76_apply, val_main_v75_apply, val_main_c_9_apply, val_main_v72_apply, eW, eB, uitofp_cmpi_eq, Ideal.mulf_def]
  simp only [val_main_v73_apply, val_main_v71_apply, eA, eX]
  rfl

/-- Adapter 6's stage of the reference at the entry (t, j) is the specification's contribution of adapter 6. -/
theorem round6 (x0 : FVec Ideal S8192x4096 .f32) (x1 x2 : FVec Ideal S512x4096 .f32) (x4 : IVec S8192 32)
    (t : Fin 8192) (j : Fin 4096) :
    val_main_v97 (F := Ideal) x0 x1 x2 x4 (ix2 t j) = AdapterSpec.round x0 x1 x2 (x4 (ix1 t)) 6 t j := by
  have eA : ∀ (k : Fin 64) (d : Fin 4096),
      idx_main_v85 (idx_main_v87 (ridx_main_v88 (lidx_main_v95 (ix2 t j) k) d)) = ix2 (col 6 k) d :=
    fun k d => funext fun b => by
      match b with
      | ⟨0, _⟩ => exact Fin.ext (show 384 + k.val = 64 * (6 : Fin 8).val + k.val by simp)
      | ⟨1, _⟩ => rfl
  have eX : ∀ (k : Fin 64) (d : Fin 4096), lidx_main_v88 (lidx_main_v95 (ix2 t j) k) d = ix2 t d :=
    fun k d => funext fun b => by
      match b with
      | ⟨0, _⟩ => rfl
      | ⟨1, _⟩ => rfl
  have eW : ∀ k : Fin 64, idx_main_v92 (idx_main_v93 (lidx_main_v95 (ix2 t j) k)) = ix1 t :=
    fun k => funext fun b => by
      match b with
      | ⟨0, _⟩ => rfl
  have eB : ∀ k : Fin 64, idx_main_v86 (ridx_main_v95 (ix2 t j) k) = ix2 (col 6 k) j :=
    fun k => funext fun b => by
      match b with
      | ⟨0, _⟩ => exact Fin.ext (show 384 + k.val = 64 * (6 : Fin 8).val + k.val by simp)
      | ⟨1, _⟩ => rfl
  rw [val_main_v97_apply, val_main_v96_apply, val_main_cst_12_apply, val_main_v95_apply, Ideal.mulf_def, Ideal.ofBits_def]
  unfold AdapterSpec.round AdapterSpec.scale AdapterSpec.proj
  congr 1
  refine Finset.sum_congr rfl fun k _ => ?_
  rw [val_main_v94_apply, val_main_v88_apply, val_main_v93_apply, val_main_v92_apply, val_main_v91_apply,
    val_main_v90_apply, val_main_v89_apply, val_main_c_11_apply, val_main_v86_apply, eW, eB, uitofp_cmpi_eq, Ideal.mulf_def]
  simp only [val_main_v87_apply, val_main_v85_apply, eA, eX]
  rfl

/-- Adapter 7's stage of the reference at the entry (t, j) is the specification's contribution of adapter 7. -/
theorem round7 (x0 : FVec Ideal S8192x4096 .f32) (x1 x2 : FVec Ideal S512x4096 .f32) (x4 : IVec S8192 32)
    (t : Fin 8192) (j : Fin 4096) :
    val_main_v111 (F := Ideal) x0 x1 x2 x4 (ix2 t j) = AdapterSpec.round x0 x1 x2 (x4 (ix1 t)) 7 t j := by
  have eA : ∀ (k : Fin 64) (d : Fin 4096),
      idx_main_v99 (idx_main_v101 (ridx_main_v102 (lidx_main_v109 (ix2 t j) k) d)) = ix2 (col 7 k) d :=
    fun k d => funext fun b => by
      match b with
      | ⟨0, _⟩ => exact Fin.ext (show 448 + k.val = 64 * (7 : Fin 8).val + k.val by simp)
      | ⟨1, _⟩ => rfl
  have eX : ∀ (k : Fin 64) (d : Fin 4096), lidx_main_v102 (lidx_main_v109 (ix2 t j) k) d = ix2 t d :=
    fun k d => funext fun b => by
      match b with
      | ⟨0, _⟩ => rfl
      | ⟨1, _⟩ => rfl
  have eW : ∀ k : Fin 64, idx_main_v106 (idx_main_v107 (lidx_main_v109 (ix2 t j) k)) = ix1 t :=
    fun k => funext fun b => by
      match b with
      | ⟨0, _⟩ => rfl
  have eB : ∀ k : Fin 64, idx_main_v100 (ridx_main_v109 (ix2 t j) k) = ix2 (col 7 k) j :=
    fun k => funext fun b => by
      match b with
      | ⟨0, _⟩ => exact Fin.ext (show 448 + k.val = 64 * (7 : Fin 8).val + k.val by simp)
      | ⟨1, _⟩ => rfl
  rw [val_main_v111_apply, val_main_v110_apply, val_main_cst_14_apply, val_main_v109_apply, Ideal.mulf_def, Ideal.ofBits_def]
  unfold AdapterSpec.round AdapterSpec.scale AdapterSpec.proj
  congr 1
  refine Finset.sum_congr rfl fun k _ => ?_
  rw [val_main_v108_apply, val_main_v102_apply, val_main_v107_apply, val_main_v106_apply, val_main_v105_apply,
    val_main_v104_apply, val_main_v103_apply, val_main_c_13_apply, val_main_v100_apply, eW, eB, uitofp_cmpi_eq, Ideal.mulf_def]
  simp only [val_main_v101_apply, val_main_v99_apply, eA, eX]
  rfl

/-- The reference's result at the entry (t, j): the eight contributions accumulated from zero in turn, added to the
    base entry. -/
theorem ref_apply (x0 : FVec Ideal Cert.ReferenceIdeal.S8192x4096 .f32) (x1 x2 : FVec Ideal Cert.ReferenceIdeal.S512x4096 .f32)
    (x3 : FVec Ideal Cert.ReferenceIdeal.S8192x4096 .f32) (x4 : IVec Cert.ReferenceIdeal.S8192 32) (t : Fin 8192) (j : Fin 4096) :
    Cert.ReferenceIdeal.Read.val_main_v113 (F := Ideal) x0 x1 x2 x3 x4 (ValueIdx.ix2 t j) =
      Cert.AdapterSpec.refOut x0 x1 x2 x3 x4 t j := by
  rw [val_main_v113_apply, val_main_v112_apply, val_main_v98_apply, val_main_v84_apply, val_main_v70_apply,
    val_main_v56_apply, val_main_v42_apply, val_main_v28_apply, val_main_v14_apply, val_main_v0_apply, val_main_cst_apply,
    round7, round6, round5, round4, round3, round2, round1, round0, Ideal.ofBits_def, Ideal.ofBits_zero_f32]
  simp only [Ideal.addf_def]
  rfl

end Cert.RefRounds
-- ==== Proof.AdapterLaw.lean ====
/-
  The two arrangements of the per-token adapter update agree on real entries.

  With every entry of x, A, B and the base a real number, each projection ∑ d, x[t,d] · A[c,d] is a real, the
  weights are the reals 0 and 1 and the scale is the real 2, so both arrangements are the image of one
  computation in ℝ. There the 512 rank rows are taken as 8 runs of 64 (row 64·a + k is row k of adapter a, and
  (64·a + k) / 64 = a), the eight runs are written out in order, and in each run the factor 2 moves across the
  64-term sum.
-/
import proofs.«111257_j927712936104_1_alg».proof.Proof.AdapterSpec

noncomputable section

open scoped BigOperators

namespace Cert.AdapterSpec

open Idealize.ShloMosaic Idealize.ShloMosaic.ValueIdx

/-- The 0/1 weight as a real. -/
def pickR (w : BitVec 32) (a : ℕ) : ℝ := if w = BitVec.ofNat 32 a then 1 else 0

theorem pick_eq (w : BitVec 32) (a : ℕ) : pick w a = ((pickR w a : ℝ) : EReal) := rfl

/-- The projection of real data, as a real. -/
def projR (x : ST.Idx → ℝ) (A : SR.Idx → ℝ) (t : Fin 8192) (c : Fin 512) : ℝ :=
  ∑ d : Fin 4096, x (ix2 t d) * A (ix2 c d)

theorem proj_coe (x : ST.Idx → ℝ) (A : SR.Idx → ℝ) (t : Fin 8192) (c : Fin 512) :
    proj (fun i => ((x i : ℝ) : EReal)) (fun i => ((A i : ℝ) : EReal)) t c = ((projR x A t c : ℝ) : EReal) := by
  unfold proj projR
  rw [Cert.LibBatchNorm.coe_sum]
  exact Finset.sum_congr rfl fun d _ => (EReal.coe_mul _ _).symm

/-- One adapter's contribution on real data, as a real. -/
theorem round_coe (x : ST.Idx → ℝ) (A B : SR.Idx → ℝ) (w : BitVec 32) (a : Fin 8) (t : Fin 8192) (j : Fin 4096) :
    round (fun i => ((x i : ℝ) : EReal)) (fun i => ((A i : ℝ) : EReal)) (fun i => ((B i : ℝ) : EReal)) w a t j
      = (((2 : ℝ) * ∑ k : Fin 64, (projR x A t (col a k) * pickR w a.val) * B (ix2 (col a k) j) : ℝ) : EReal) := by
  unfold round
  rw [scale_eq, EReal.coe_mul, Cert.LibBatchNorm.coe_sum]
  refine congrArg (fun s => ((2 : ℝ) : EReal) * s) (Finset.sum_congr rfl fun k _ => ?_)
  rw [proj_coe, pick_eq, EReal.coe_mul, EReal.coe_mul]

/-- The 512 rows as 8 runs of 64. -/
theorem sum_rows (g : Fin 512 → ℝ) : ∑ c : Fin 512, g c = ∑ a : Fin 8, ∑ k : Fin 64, g (col a k) :=
  (Cert.LibBlockSum.sum_blocks 8 64 g).symm

/-- In one run the factor 2 moves across the sum, and every row of the run belongs to the run's adapter. -/
theorem run_scale (P : Fin 512 → ℝ) (w : BitVec 32) (Bj : Fin 512 → ℝ) (a : Fin 8) :
    ∑ k : Fin 64, ((P (col a k) * pickR w ((col a k).val / 64)) * 2) * Bj (col a k)
      = 2 * ∑ k : Fin 64, (P (col a k) * pickR w a.val) * Bj (col a k) := by
  rw [Finset.mul_sum]
  refine Finset.sum_congr rfl fun k _ => ?_
  rw [col_div]; ring

/-- **The two arrangements agree** when every entry of x, A, B and the base is a real number. -/
theorem refOut_eq_kerOut (x : ST.Idx → EReal) (A B : SR.Idx → EReal) (base : ST.Idx → EReal) (ids : SN.Idx → BitVec 32)
    (hx : ∀ i, ∃ r : ℝ, x i = (r : EReal)) (hA : ∀ i, ∃ r : ℝ, A i = (r : EReal))
    (hB : ∀ i, ∃ r : ℝ, B i = (r : EReal)) (hb : ∀ i, ∃ r : ℝ, base i = (r : EReal))
    (t : Fin 8192) (j : Fin 4096) : refOut x A B base ids t j = kerOut x A B base ids t j := by
  choose x' hx' using hx
  choose A' hA' using hA
  choose B' hB' using hB
  choose b' hb' using hb
  obtain rfl : x = fun i => ((x' i : ℝ) : EReal) := funext hx'
  obtain rfl : A = fun i => ((A' i : ℝ) : EReal) := funext hA'
  obtain rfl : B = fun i => ((B' i : ℝ) : EReal) := funext hB'
  obtain rfl : base = fun i => ((b' i : ℝ) : EReal) := funext hb'
  have hk : kerOut (fun i => ((x' i : ℝ) : EReal)) (fun i => ((A' i : ℝ) : EReal)) (fun i => ((B' i : ℝ) : EReal))
      (fun i => ((b' i : ℝ) : EReal)) ids t j
      = ((b' (ix2 t j) + ∑ c : Fin 512, ((projR x' A' t c * pickR (ids (ix1 t)) (c.val / 64)) * 2) * B' (ix2 c j) : ℝ) : EReal) := by
    unfold kerOut
    rw [EReal.coe_add, Cert.LibBatchNorm.coe_sum]
    refine congrArg (fun s => ((b' (ix2 t j) : ℝ) : EReal) + s) (Finset.sum_congr rfl fun c _ => ?_)
    rw [proj_coe, pick_eq, scale_eq, EReal.coe_mul, EReal.coe_mul, EReal.coe_mul]
  rw [hk]
  unfold refOut
  simp only [round_coe]
  rw [← EReal.coe_zero]
  simp only [← EReal.coe_add]
  refine congrArg (fun r : ℝ => (r : EReal)) ?_
  rw [sum_rows, Fin.sum_univ_eight]
  simp only [run_scale (fun c => projR x' A' t c) (ids (ix1 t)) (fun c => B' (ix2 c j))]
  ring

end Cert.AdapterSpec

end
-- ==== Proof.FiniteInputs.lean ====
import proofs.«111257_j927712936104_1_alg».proof.Pre_finite_inputs
import Idealize.ShloMosaic.PureOps.Ideal
import Idealize.ShloMosaic.Lib.ValueIdx
import Idealize.ShloMosaic.Lib.ReduceAll

/-!
  The finiteness precondition, decoded. The precondition states, for each of the four float
  arguments, that the conjunction over all entries of the comparison `|v| < +∞` is true. On the
  extended reals `|v| = max v (-v)`, and `max v (-v) < ⊤` excludes both `v = ⊤` and `v = ⊥`,
  so every entry is the coercion of a real number.
-/

namespace Cert.FiniteInputs

open Idealize.ShloMosaic

/-- The pattern `0x7F800000` denotes `+∞`. -/
theorem ofBits_inf : Ideal.ofBits .f32 0x7F800000#32 = (⊤ : EReal) := by
  simp [Ideal.ofBits, Ideal.ieee]

/-- An extended real whose absolute value `max v (-v)` compares strictly below `+∞` is a real. -/
theorem real_of_abs_lt_inf (v : EReal)
    (h : Ideal.cmp .olt (max v (-v)) (Ideal.ofBits .f32 0x7F800000#32) = 1#1) : ∃ r : ℝ, v = (r : EReal) := by
  rw [ofBits_inf] at h
  induction v using EReal.rec with
  | bot => simp [Ideal.cmp] at h
  | coe r => exact ⟨r, rfl⟩
  | top => simp [Ideal.cmp] at h

instance : Subsingleton Cert.Pre_finite_inputs.S_.Idx := ⟨fun a b => funext fun d => d.elim0⟩

theorem reals_of_pre [Cert.Pre_finite_inputs.Facts]
    (x0 : FVec Ideal Cert.Pre_finite_inputs.S8192x4096 .f32) (x1 x2 : FVec Ideal Cert.Pre_finite_inputs.S512x4096 .f32)
    (x3 : FVec Ideal Cert.Pre_finite_inputs.S8192x4096 .f32) (x4 : IVec Cert.Pre_finite_inputs.S8192 32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧
      (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact real_of_abs_lt_inf _ (Host.reduce_andi_all _ _ _ _ _ h0' i)
  · exact real_of_abs_lt_inf _ (Host.reduce_andi_all _ _ _ _ _ h1 i)
  · exact real_of_abs_lt_inf _ (Host.reduce_andi_all _ _ _ _ _ h2 i)
  · exact real_of_abs_lt_inf _ (Host.reduce_andi_all _ _ _ _ _ h3 i)

end Cert.FiniteInputs
-- ==== Proof.lean ====
/- The certificate's five claims for a per-token low-rank adapter update.

   Each of 8192 tokens carries an adapter number; the update of output entry (t, j) is the base entry plus twice the
   sum, over the 64 rank rows c of the token's own adapter, of (∑ d, x[t,d] · A[c,d]) · B[c,j]. The kernel takes all
   512 rank rows in one sum with a 0/1 weight per row (Proof/KernelEntry.lean: one block's stored entry;
   Proof/KernelWhole.lean: the 16 row blocks make the whole result array). The reference walks the 8 adapters in turn
   (Proof/RefRounds.lean: its result read at an entry). Proof/AdapterSpec.lean states both arrangements and
   Proof/AdapterLaw.lean shows that they agree when every entry of the float arguments is a real number — the law
   distributes a factor over a sum, which fails at infinities — and Proof/FiniteInputs.lean reads exactly that out of
   the precondition.

   The kernel's two frames are its generated frame certificates; the reference's frame is its generated run with the
   result dropped; the idealization rewrote nothing, so there is nothing to preserve. -/
import proofs.«111257_j927712936104_1_alg».proof.Defs
import proofs.«111257_j927712936104_1_alg».proof.Proof.Gen.Kernel
import proofs.«111257_j927712936104_1_alg».proof.Proof.Gen.Kernel.Skeleton
import proofs.«111257_j927712936104_1_alg».proof.Proof.Gen.Kernel.Launch
import proofs.«111257_j927712936104_1_alg».proof.Proof.Gen.Kernel.Points
import proofs.«111257_j927712936104_1_alg».proof.Proof.Gen.Kernel.Frame
import proofs.«111257_j927712936104_1_alg».proof.Proof.Gen.KernelIdeal
import proofs.«111257_j927712936104_1_alg».proof.Proof.Gen.KernelIdeal.Skeleton
import proofs.«111257_j927712936104_1_alg».proof.Proof.Gen.KernelIdeal.Launch
import proofs.«111257_j927712936104_1_alg».proof.Proof.Gen.KernelIdeal.Points
import proofs.«111257_j927712936104_1_alg».proof.Proof.Gen.KernelIdeal.Frame
import proofs.«111257_j927712936104_1_alg».proof.Proof.Gen.ReferenceIdeal
import proofs.«111257_j927712936104_1_alg».proof.Proof.Gen.Pre_finite_inputs
import proofs.«111257_j927712936104_1_alg».proof.Proof.Gen.KernelIdeal.Value
import proofs.«111257_j927712936104_1_alg».proof.Proof.Gen.ReferenceIdeal.Run
import proofs.«111257_j927712936104_1_alg».proof.Proof.Gen.ReferenceIdeal.Read
import proofs.«111257_j927712936104_1_alg».proof.Proof.KernelWhole
import proofs.«111257_j927712936104_1_alg».proof.Proof.RefRounds
import proofs.«111257_j927712936104_1_alg».proof.Proof.AdapterLaw
import proofs.«111257_j927712936104_1_alg».proof.Proof.FiniteInputs
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel as printed runs and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments as they were: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, with every float entry finite, both programs end with the same result array: the
    kernel's at the all-rows arrangement of the update, the reference's at the adapters-in-turn arrangement, and on real
    entries the two arrangements are one function. -/
theorem algebraic : Cert.algebraic_KernelIdeal_ReferenceIdeal := by
  intro m ρ m' ρ' hpre hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v113_eq, (hagree c).1, (hagree c).2.1, (hagree c).2.2.1, (hagree c).2.2.2.1,
    (hagree c).2.2.2.2]
  funext i
  obtain ⟨t, j, rfl⟩ : ∃ (t : Fin 8192) (j : Fin 4096), i = ix2 t j := ⟨i 0, i 1, eq_ix2 i⟩
  rw [Cert.RefRounds.ref_apply]
  obtain ⟨h0, h1, h2, h3⟩ := Cert.FiniteInputs.reals_of_pre _ _ _ _ _ (hpre c)
  exact Cert.AdapterSpec.refOut_eq_kerOut _ _ _ _ _ h0 h1 h2 h3 t j

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
